-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x2048 : Shape := ⟨3, ![4, 4096, 2048]⟩
abbrev S64x2048 : Shape := ⟨2, ![64, 2048]⟩
abbrev S64 : Shape := ⟨1, ![64]⟩
abbrev S12288x64 : Shape := ⟨2, ![12288, 64]⟩
abbrev S_ : Shape := ⟨0, ![]⟩

class Facts : Prop where
  bcast_S_S4x4096x2048 : S_.BroadcastsInDim S4x4096x2048 (![] : Fin 0 → Fin S4x4096x2048.rank)
  reducesTo_S4x4096x2048_S_d0_1_2 : S4x4096x2048.ReducesTo [0, 1, 2] S_
  h_S_ : 0 < S_.numel
  bcast_S_S64x2048 : S_.BroadcastsInDim S64x2048 (![] : Fin 0 → Fin S64x2048.rank)
  reducesTo_S64x2048_S_d0_1 : S64x2048.ReducesTo [0, 1] S_
  bcast_S_S64 : S_.BroadcastsInDim S64 (![] : Fin 0 → Fin S64.rank)
  reducesTo_S64_S_d0 : S64.ReducesTo [0] S_
  bcast_S_S12288x64 : S_.BroadcastsInDim S12288x64 (![] : Fin 0 → Fin S12288x64.rank)
  reducesTo_S12288x64_S_d0_1 : S12288x64.ReducesTo [0, 1] S_

variable [Facts]

def fn_part1 {F : FTy → Type} [FloatOps F] (main_v13 : IVec S_ 1) (main_v16 : IVec S12288x64 1) : IVec S_ 1 :=
  let main_c_5 : IVec S_ 1 := constantI S_ 1 1#1
  let main_v17 : IVec S_ 1 := (fun x v => Host.reduce IntOp.andi x v reducesTo_S12288x64_S_d0_1 h_S_) main_v16 main_c_5
  let main_v18 : IVec S_ 1 := andi main_v13 main_v17
  main_v18

def fn {F : FTy → Type} [FloatOps F] (main_arg0 : FVec F S4x4096x2048 .f32) (main_arg1 : FVec F S64x2048 .f32) (main_arg2 : FVec F S64 .f32) (main_arg3 : FVec F S12288x64 .f32) : IVec S_ 1 :=
  let main_v0 : FVec F S4x4096x2048 .f32 := Host.absf main_arg0
  let main_cst : FVec F S_ .f32 := constant S_ .f32 0x7F800000#32
  let main_v1 : FVec F S4x4096x2048 .f32 := broadcastInDim S4x4096x2048 ![] bcast_S_S4x4096x2048 main_cst
  let main_v2 : IVec S4x4096x2048 1 := cmpf .olt main_v0 main_v1
  let main_c : IVec S_ 1 := constantI S_ 1 1#1
  let main_v3 : IVec S_ 1 := (fun x v => Host.reduce IntOp.andi x v reducesTo_S4x4096x2048_S_d0_1_2 h_S_) main_v2 main_c
  let main_v4 : FVec F S64x2048 .f32 := Host.absf main_arg1
  let main_cst_0 : FVec F S_ .f32 := constant S_ .f32 0x7F800000#32
  let main_v5 : FVec F S64x2048 .f32 := broadcastInDim S64x2048 ![] bcast_S_S64x2048 main_cst_0
  let main_v6 : IVec S64x2048 1 := cmpf .olt main_v4 main_v5
  let main_c_1 : IVec S_ 1 := constantI S_ 1 1#1
  let main_v7 : IVec S_ 1 := (fun x v => Host.reduce IntOp.andi x v reducesTo_S64x2048_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S12288x64 .f32 := Host.absf main_arg3
  let main_cst_4 : FVec F S_ .f32 := constant S_ .f32 0x7F800000#32
  let main_v15 : FVec F S12288x64 .f32 := broadcastInDim S12288x64 ![] bcast_S_S12288x64 main_cst_4
  let main_v16 : IVec S12288x64 1 := cmpf .olt main_v14 main_v15
  fn_part1 (F := F) main_v13 main_v16
-- ==== Kernel.lean ====
abbrev S4x4096x2048 : Shape := ⟨3, ![4, 4096, 2048]⟩
abbrev S64x2048 : Shape := ⟨2, ![64, 2048]⟩
abbrev S64 : Shape := ⟨1, ![64]⟩
abbrev S12288x64 : Shape := ⟨2, ![12288, 64]⟩
abbrev S16384x2048 : Shape := ⟨2, ![16384, 2048]⟩
abbrev S1x64 : Shape := ⟨2, ![1, 64]⟩
abbrev S4096x64 : Shape := ⟨2, ![4096, 64]⟩
abbrev S16384x4096 : Shape := ⟨2, ![16384, 4096]⟩
abbrev S4x4096x4096 : Shape := ⟨3, ![4, 4096, 4096]⟩
abbrev S1024x2048 : Shape := ⟨2, ![1024, 2048]⟩
abbrev S1024x4096 : Shape := ⟨2, ![1024, 4096]⟩
abbrev S4096 : Shape := ⟨1, ![4096]⟩
abbrev S4096x1 : Shape := ⟨2, ![4096, 1]⟩
abbrev S1024x64 : Shape := ⟨2, ![1024, 64]⟩

abbrev nBuf : Space → Nat
  | .hbm => 9
  | .vmem => 7
  | .smem => 0
  | _ => 0

abbrev bufTy : (tb : Table) → Fin (tcTables nBuf tb) → BufTy
  | .hbm, ⟨0, _⟩ => ⟨S4x4096x2048, .f32⟩
  | .hbm, ⟨1, _⟩ => ⟨S64x2048, .f32⟩
  | .hbm, ⟨2, _⟩ => ⟨S64, .f32⟩
  | .hbm, ⟨3, _⟩ => ⟨S12288x64, .f32⟩
  | .hbm, ⟨4, _⟩ => ⟨S16384x2048, .f32⟩
  | .hbm, ⟨5, _⟩ => ⟨S1x64, .f32⟩
  | .hbm, ⟨6, _⟩ => ⟨S4096x64, .f32⟩
  | .hbm, ⟨7, _⟩ => ⟨S16384x4096, .f32⟩
  | .hbm, ⟨8, _⟩ => ⟨S4x4096x4096, .f32⟩
  | .local _ .vmem, ⟨0, _⟩ => ⟨S1024x2048, .f32⟩
  | .local _ .vmem, ⟨1, _⟩ => ⟨S1024x2048, .f32⟩
  | .local _ .vmem, ⟨2, _⟩ => ⟨S64x2048, .f32⟩
  | .local _ .vmem, ⟨3, _⟩ => ⟨S1x64, .f32⟩
  | .local _ .vmem, ⟨4, _⟩ => ⟨S4096x64, .f32⟩
  | .local _ .vmem, ⟨5, _⟩ => ⟨S1024x4096, .f32⟩
  | .local _ .vmem, ⟨6, _⟩ => ⟨S1024x4096, .f32⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_v0 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4096x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S4x4096x2048_S16384x2048 : S4x4096x2048.ShapeCasts S16384x2048
  shapeCasts_S64_S1x64 : S64.ShapeCasts S1x64
  slices_S12288x64_S4096x64_0_0 : S12288x64.Slices ![0, 0] S4096x64
  shapeCasts_S16384x4096_S4x4096x4096 : S16384x4096.ShapeCasts S4x4096x4096
  inb_S4096x64_S4096x64_0_0 : ∀ a, (![0, 0] : Fin 2 → Nat) a + S4096x64.size a ≤ S4096x64.size a
  h_S4096x64 : 0 < S4096x64.numel
  shapeCasts_S4096x64_S4096x64 : S4096x64.ShapeCasts S4096x64
  reduces_S4096x64_S4096 : S4096x64.Reduces [1] S4096
  shapeCasts_S4096_S4096x1 : S4096.ShapeCasts S4096x1
  broadcasts_S4096x1_S4096x64 : S4096x1.Broadcasts S4096x64
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S64x2048_S64x2048_0_0 : ∀ a, (![0, 0] : Fin 2 → Nat) a + S64x2048.size a ≤ S64x2048.size a
  h_S64x2048 : 0 < S64x2048.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S1024x64 : S1x64.Broadcasts S1024x64
  inb_S1024x4096_S1024x4096_0_0 : ∀ a, (![0, 0] : Fin 2 → Nat) a + S1024x4096.size a ≤ S1024x4096.size a
  h_S1024x4096 : 0 < S1024x4096.numel
  dot_S1024x2048_S64x2048_S1024x64_1_1_0_0_n_n_wf : DotDims.WF S1024x2048 S64x2048 S1024x64 [1] [1] [0] [0] [] []
  dot_S1024x64_S4096x64_S1024x4096_1_1_0_0_n_n_wf : DotDims.WF S1024x64 S4096x64 S1024x4096 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S16384x2048.size a
  hwx0_0 : ∀ i : grid0.Coords, EltTy.bits .f32 = 32 ∨ (Rect.block (s := S16384x2048) S1024x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x2048.size a ≤ S64x2048.size a
  hwx0_1 : ∀ i : grid0.Coords, EltTy.bits .f32 = 32 ∨ (Rect.block (s := S64x2048) S64x2048.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4096x64.size a ≤ S4096x64.size a
  hwx0_3 : ∀ i : grid0.Coords, EltTy.bits .f32 = 32 ∨ (Rect.block (s := S4096x64) S4096x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x4096.size a ≤ S16384x4096.size a
  hwx0_4 : ∀ i : grid0.Coords, EltTy.bits .f32 = 32 ∨ (Rect.block (s := S16384x4096) S1024x4096.size (cc0_transform_4 i) (hinb0_4 i)).WholeWords (EltTy.packing .f32)

variable [Facts₀]

def dot_S1024x2048_S64x2048_S1024x64_1_1_0_0_n_n : DotDims S1024x2048 S64x2048 S1024x64 where
  lhsContracting := [1]
  rhsContracting := [1]
  lhsNonContracting := [0]
  rhsNonContracting := [0]
  lhsBatch := []
  rhsBatch := []
  wf := dot_S1024x2048_S64x2048_S1024x64_1_1_0_0_n_n_wf
def dot_S1024x64_S4096x64_S1024x4096_1_1_0_0_n_n : DotDims S1024x64 S4096x64 S1024x4096 where
  lhsContracting := [1]
  rhsContracting := [1]
  lhsNonContracting := [0]
  rhsNonContracting := [0]
  lhsBatch := []
  rhsBatch := []
  wf := dot_S1024x64_S4096x64_S1024x4096_1_1_0_0_n_n_wf

abbrev win0_0 : Pipeline.Window sig grid0 :=
  Pipeline.Window.ofSpec (Memref.whole main_call0_v0) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v1) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v2) S4096x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_call0_v3) S1024x4096.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4x4096x2048 : Shape := ⟨3, ![4, 4096, 2048]⟩
abbrev S64x2048 : Shape := ⟨2, ![64, 2048]⟩
abbrev S64 : Shape := ⟨1, ![64]⟩
abbrev S12288x64 : Shape := ⟨2, ![12288, 64]⟩
abbrev S4x4096x64 : Shape := ⟨3, ![4, 4096, 64]⟩
abbrev S1x1x64 : Shape := ⟨3, ![1, 1, 64]⟩
abbrev S4096x64 : Shape := ⟨2, ![4096, 64]⟩
abbrev S_ : Shape := ⟨0, ![]⟩
abbrev S4096 : Shape := ⟨1, ![4096]⟩
abbrev S4096x1 : Shape := ⟨2, ![4096, 1]⟩
abbrev S4x4096x4096 : Shape := ⟨3, ![4, 4096, 4096]⟩

abbrev nBuf : Space → Nat
  | .hbm => 20
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S64x2048, .f32⟩
  | .hbm, ⟨2, _⟩ => ⟨S64, .f32⟩
  | .hbm, ⟨3, _⟩ => ⟨S12288x64, .f32⟩
  | .hbm, ⟨4, _⟩ => ⟨S4x4096x64, .f32⟩
  | .hbm, ⟨5, _⟩ => ⟨S1x1x64, .f32⟩
  | .hbm, ⟨6, _⟩ => ⟨S4x4096x64, .f32⟩
  | .hbm, ⟨7, _⟩ => ⟨S4x4096x64, .f32⟩
  | .hbm, ⟨8, _⟩ => ⟨S4096x64, .f32⟩
  | .hbm, ⟨9, _⟩ => ⟨S4096x64, .f32⟩
  | .hbm, ⟨10, _⟩ => ⟨S_, .f32⟩
  | .hbm, ⟨11, _⟩ => ⟨S4096, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x64, .f32⟩
  | .hbm, ⟨18, _⟩ => ⟨S4096x64, .f32⟩
  | .hbm, ⟨19, _⟩ => ⟨S4x4096x4096, .f32⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_call0_v0 : Ref sig .tc := ⟨.hbm, 9, rfl⟩
abbrev main_call0_cst : Ref sig .tc := ⟨.hbm, 10, rfl⟩
abbrev main_call0_v1 : Ref sig .tc := ⟨.hbm, 11, rfl⟩
abbrev main_call0_v2 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩

abbrev nD : Nat := 1
abbrev τ : Topo := Topo.v7x

variable {F : FTy → Type} [FloatOps F]

class Facts₀ : Prop where
  bcast_S64_S1x1x64_2 : S64.BroadcastsInDim S1x1x64 (![2] : Fin 1 → Fin S1x1x64.rank)
  bcast_S1x1x64_S4x4096x64_0_1_2 : S1x1x64.BroadcastsInDim S4x4096x64 (![0, 1, 2] : Fin 3 → Fin S4x4096x64.rank)
  slices_S12288x64_S4096x64_0_0 : S12288x64.Slices ![0, 0] S4096x64
  reducesTo_S4096x64_S4096_d1 : S4096x64.ReducesTo [1] S4096
  h_S_ : 0 < S_.numel
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x64_0_1 : S4096x1.BroadcastsInDim S4096x64 (![0, 1] : Fin 2 → Fin S4096x64.rank)
  dot_S4x4096x2048_S64x2048_S4x4096x64_2_1_01_0_n_n_wf : DotDims.WF S4x4096x2048 S64x2048 S4x4096x64 [2] [1] [0, 1] [0] [] []
  dot_S4x4096x64_S4096x64_S4x4096x4096_2_1_01_0_n_n_wf : DotDims.WF S4x4096x64 S4096x64 S4x4096x4096 [2] [1] [0, 1] [0] [] []

variable [Facts₀]

def dot_S4x4096x2048_S64x2048_S4x4096x64_2_1_01_0_n_n : DotDims S4x4096x2048 S64x2048 S4x4096x64 where
  lhsContracting := [2]
  rhsContracting := [1]
  lhsNonContracting := [0, 1]
  rhsNonContracting := [0]
  lhsBatch := []
  rhsBatch := []
  wf := dot_S4x4096x2048_S64x2048_S4x4096x64_2_1_01_0_n_n_wf
def dot_S4x4096x64_S4096x64_S4x4096x4096_2_1_01_0_n_n : DotDims S4x4096x64 S4096x64 S4x4096x4096 where
  lhsContracting := [2]
  rhsContracting := [1]
  lhsNonContracting := [0, 1]
  rhsNonContracting := [0]
  lhsBatch := []
  rhsBatch := []
  wf := dot_S4x4096x64_S4096x64_S4x4096x4096_2_1_01_0_n_n_wf

class Facts : Prop extends Facts₀ where

variable [Facts]
-- ==== Proof.Spec.lean ====
/-
  The router's logits, written once over coordinates.

  A token's model vector `x` (2048 entries) is projected to 64 entries, `proj d = (∑ k, x k · w d k) + b d`.
  Row `n` of the embedding table is scaled to unit length with its norm clamped from below:
  `unitEntry n d = e n d / max (√(∑ j, e n j · e n j)) floor`, where `floor` is the extended real the f32 word
  of 1e-12 denotes (the same word on both sides of the comparison, so it is never evaluated).
  The logit of the token against row `n` is the inner product `∑ d, proj d · unitEntry n d`.
  `G` is the whole result `[4, 4096, 4096]` over the four argument arrays; `G2` is the same numbers laid out
  `[16384, 4096]` over the token-major `[16384, 2048]` view of `x`, the bias as one row `[1, 64]` and the
  first 4096 rows of the table.
  Only sums, products, one quotient, one square root and one maximum occur, each applied to the same operands in
  the same order by both programs, so no law of the extended reals (and no finiteness of the inputs) is needed.
-/
import Idealize.ShloMosaic.PureOps.Ideal
import Idealize.ShloMosaic.Lib.ValueIdx

noncomputable section

open scoped BigOperators

namespace Cert.Logits

open Idealize.ShloMosaic Idealize.ShloMosaic.ValueIdx

/-- The lower clamp of a row's norm: what the f32 word of 1e-12 denotes. -/
abbrev normFloor : EReal := Ideal.ofBits .f32 0x2B8CBCCC#32

/-- Entry `(n, d)` of the table with each row divided by its clamped Euclidean norm. -/
def unitEntry (e : Fin 4096 → Fin 64 → EReal) (n : Fin 4096) (d : Fin 64) : EReal :=
  Ideal.div (e n d) (max (Ideal.sqrt (∑ j : Fin 64, e n j * e n j)) normFloor)

/-- Entry `d` of the projected token: the inner product with row `d` of the weights, plus the bias. -/
def proj (x : Fin 2048 → EReal) (w : Fin 64 → Fin 2048 → EReal) (b : Fin 64 → EReal) (d : Fin 64) : EReal :=
  (∑ k : Fin 2048, x k * w d k) + b d

/-- The logit of one token against table row `n`. -/
def logit (x : Fin 2048 → EReal) (w : Fin 64 → Fin 2048 → EReal) (b : Fin 64 → EReal)
    (e : Fin 4096 → Fin 64 → EReal) (n : Fin 4096) : EReal :=
  ∑ d : Fin 64, proj x w b d * unitEntry e n d

/-- The logit depends on its operands entry by entry. -/
theorem logit_congr {x x' : Fin 2048 → EReal} {w w' : Fin 64 → Fin 2048 → EReal} {b b' : Fin 64 → EReal}
    {e e' : Fin 4096 → Fin 64 → EReal} {n n' : Fin 4096}
    (hx : ∀ k, x k = x' k) (hw : ∀ d k, w d k = w' d k) (hb : ∀ d, b d = b' d) (he : ∀ n d, e n d = e' n d)
    (hn : n = n') : logit x w b e n = logit x' w' b' e' n' := by
  obtain rfl : x = x' := funext hx
  obtain rfl : w = w' := funext fun d => funext (hw d)
  obtain rfl : b = b' := funext hb
  obtain rfl : e = e' := funext fun n => funext (he n)
  rw [hn]

/-- A row number of the table's first 4096 rows, as a row number of the whole table. -/
abbrev tableRow (n : Fin 4096) : Fin 12288 := ⟨n.val, by have := n.isLt; omega⟩

/-- The whole result over the four argument arrays: entry `(b, s, n)` is the logit of token `(b, s)` against row `n`. -/
def G (X : (⟨3, ![4, 4096, 2048]⟩ : Shape).Idx → EReal) (W : (⟨2, ![64, 2048]⟩ : Shape).Idx → EReal)
    (B : (⟨1, ![64]⟩ : Shape).Idx → EReal) (E : (⟨2, ![12288, 64]⟩ : Shape).Idx → EReal) :
    (⟨3, ![4, 4096, 4096]⟩ : Shape).Idx → EReal :=
  fun i => logit (fun k => X (ix3 (i 0) (i 1) k)) (fun d k => W (ix2 d k)) (fun d => B (ix1 d))
    (fun n d => E (ix2 (tableRow n) d)) (i 2)

theorem G_apply (X : (⟨3, ![4, 4096, 2048]⟩ : Shape).Idx → EReal) (W : (⟨2, ![64, 2048]⟩ : Shape).Idx → EReal)
    (B : (⟨1, ![64]⟩ : Shape).Idx → EReal) (E : (⟨2, ![12288, 64]⟩ : Shape).Idx → EReal)
    (b : Fin 4) (s : Fin 4096) (n : Fin 4096) :
    G X W B E (ix3 b s n) = logit (fun k => X (ix3 b s k)) (fun d k => W (ix2 d k)) (fun d => B (ix1 d))
      (fun n d => E (ix2 (tableRow n) d)) n := rfl

/-- The same numbers token-major: entry `(r, n)` over the `[16384, 2048]` view of the tokens, the bias as one row
    and the table's first 4096 rows. -/
def G2 (X2 : (⟨2, ![16384, 2048]⟩ : Shape).Idx → EReal) (W : (⟨2, ![64, 2048]⟩ : Shape).Idx → EReal)
    (B2 : (⟨2, ![1, 64]⟩ : Shape).Idx → EReal) (E2 : (⟨2, ![4096, 64]⟩ : Shape).Idx → EReal) :
    (⟨2, ![16384, 4096]⟩ : Shape).Idx → EReal :=
  fun i => logit (fun k => X2 (ix2 (i 0) k)) (fun d k => W (ix2 d k)) (fun d => B2 (ix2 (0 : Fin 1) d))
    (fun n d => E2 (ix2 n d)) (i 1)

theorem G2_apply (X2 : (⟨2, ![16384, 2048]⟩ : Shape).Idx → EReal) (W : (⟨2, ![64, 2048]⟩ : Shape).Idx → EReal)
    (B2 : (⟨2, ![1, 64]⟩ : Shape).Idx → EReal) (E2 : (⟨2, ![4096, 64]⟩ : Shape).Idx → EReal)
    (r : Fin 16384) (n : Fin 4096) :
    G2 X2 W B2 E2 (ix2 r n) = logit (fun k => X2 (ix2 r k)) (fun d k => W (ix2 d k)) (fun d => B2 (ix2 (0 : Fin 1) d))
      (fun n d => E2 (ix2 n d)) n := rfl

end Cert.Logits

end
-- ==== Proof.RefValue.lean ====
/-
  The reference's result, read one operation at a time, is `Cert.Logits.G` of its four arguments.

  At entry `(b, s, n)` the last contraction sums over `d` the product of the projected token's entry `d` — the first
  contraction over `k` of `x (b, s, k) · w (d, k)` plus the bias broadcast along the token axes — with entry `(n, d)` of
  the table's first 4096 rows divided by the row's clamped norm: the host's sum starts from the zero word, and
  `0 + ∑` is `∑`.
-/
import proofs.«102659_g64476049048132_cont_9to1c4b_522_37_alg».proof.Proof.Gen.ReferenceIdeal.Read
import proofs.«102659_g64476049048132_cont_9to1c4b_522_37_alg».proof.Proof.Spec
import Idealize.ShloMosaic.PureOps.Ideal.Laws

noncomputable section

open scoped BigOperators

namespace Cert.ReferenceIdeal.RefValue

open Cert.ReferenceIdeal Cert.ReferenceIdeal.Gen Cert.ReferenceIdeal.Read Idealize.ShloMosaic Idealize.ShloMosaic.ValueIdx
open Cert.Logits

/-- Entry `d` of the projected token `(b, s)`, as the reference computes it. -/
theorem proj_apply (x0 : (⟨S4x4096x2048, .f32⟩ : BufTy).Contents (Elt Ideal)) (x1 : (⟨S64x2048, .f32⟩ : BufTy).Contents (Elt Ideal))
    (x2 : (⟨S64, .f32⟩ : BufTy).Contents (Elt Ideal)) (b : Fin 4) (s : Fin 4096) (d : Fin 64) :
    val_main_v3 (F := Ideal) x0 x1 x2 (ix3 b s d)
      = proj (fun k => x0 (ix3 b s k)) (fun d k => x1 (ix2 d k)) (fun d => x2 (ix1 d)) d := by
  rw [val_main_v3_apply, val_main_v0_apply, val_main_v2_apply, val_main_v1_apply]
  have e0 : ∀ k : Fin 2048, lidx_main_v0 (ix3 b s d) k = ix3 b s k := fun k =>
    funext fun a => Fin.ext (by match a with | ⟨0, _⟩ => rfl | ⟨1, _⟩ => rfl | ⟨2, _⟩ => rfl)
  have e1 : ∀ k : Fin 2048, ridx_main_v0 (ix3 b s d) k = ix2 d k := fun k =>
    funext fun a => Fin.ext (by match a with | ⟨0, _⟩ => rfl | ⟨1, _⟩ => rfl)
  have e2 : idx_main_v1 (idx_main_v2 (ix3 b s d)) = ix1 d :=
    funext fun a => Fin.ext (by match a with | ⟨0, _⟩ => rfl)
  simp only [e0, e1, e2]
  rfl

/-- Entry `(n, d)` of the unit-length table rows, as the reference computes it. -/
theorem unit_apply (x3 : (⟨S12288x64, .f32⟩ : BufTy).Contents (Elt Ideal)) (n : Fin 4096) (d : Fin 64) :
    val_main_v9 (F := Ideal) x3 (ix2 n d) = unitEntry (fun n d => x3 (ix2 (tableRow n) d)) n d := by
  rw [val_main_v9_apply, val_main_v8_apply, val_main_v7_apply, val_main_v5_apply, val_main_v6_apply, val_main_cst_apply,
    val_main_call0_v2_apply, val_main_call0_v1_apply, val_main_call0_cst_apply, val_main_v4_apply]
  have e0 : idx_main_v4 (ix2 n d) = ix2 (tableRow n) d :=
    funext fun a => Fin.ext (by match a with | ⟨0, _⟩ => rfl | ⟨1, _⟩ => rfl)
  have e1 : ∀ j : Fin 64, idx_main_v4 (idx_main_call0_v1 (idx_main_call0_v2 (idx_main_v8 (ix2 n d))) j) = ix2 (tableRow n) j := fun j =>
    funext fun a => Fin.ext (by match a with | ⟨0, _⟩ => rfl | ⟨1, _⟩ => rfl)
  simp only [val_main_call0_v0_apply, val_main_v4_apply, e0, e1, Ideal.ofBits_def, Ideal.ofBits_zero_f32, zero_add,
    Ideal.hostDivf_def, Ideal.maximumf_def, Ideal.hostUnary_sqrt_def, Ideal.mulf_def]
  rfl

/-- The reference's result is `G` of its arguments. -/
theorem result_eq (x0 : (⟨S4x4096x2048, .f32⟩ : BufTy).Contents (Elt Ideal)) (x1 : (⟨S64x2048, .f32⟩ : BufTy).Contents (Elt Ideal))
    (x2 : (⟨S64, .f32⟩ : BufTy).Contents (Elt Ideal)) (x3 : (⟨S12288x64, .f32⟩ : BufTy).Contents (Elt Ideal)) :
    val_main_v10 (F := Ideal) x0 x1 x2 x3 = G x0 x1 x2 x3 := by
  funext i
  obtain ⟨b, s, n, rfl⟩ : ∃ (b : Fin 4) (s : Fin 4096) (n : Fin 4096), i = ix3 b s n := ⟨i 0, i 1, i 2, eq_ix3 i⟩
  rw [val_main_v10_apply, G_apply]
  unfold logit
  refine Finset.sum_congr rfl fun d _ => ?_
  have e0 : lidx_main_v10 (ix3 b s n) d = ix3 b s d :=
    funext fun a => Fin.ext (by match a with | ⟨0, _⟩ => rfl | ⟨1, _⟩ => rfl | ⟨2, _⟩ => rfl)
  have e1 : ridx_main_v10 (ix3 b s n) d = ix2 n d :=
    funext fun a => Fin.ext (by match a with | ⟨0, _⟩ => rfl | ⟨1, _⟩ => rfl)
  rw [e0, e1, proj_apply, unit_apply]

end Cert.ReferenceIdeal.RefValue

end
-- ==== Proof.LibKeepdims.lean ====
/-
  Two layout operations read at an index given by coordinates, for a row reduction that keeps its axis
  (`sum(..., axis=-1, keepdims=True)`): the reduced vector `[a]` is first viewed as a column `[a, 1]`, and the column is
  then broadcast along the second axis to `[a, b]`. At `(p, c)` both read the vector's entry `p`: a row-major position in
  `[a, 1]` is the row number itself, and a broadcast reads coordinate `0` on the operand's unit axis whatever `c` is.
-/
import Idealize.ShloMosaic.Lib.Pipeline.Value
import Idealize.ShloMosaic.Lib.ValueIdx

namespace Idealize.ShloMosaic.ValueIdx

open Idealize.ShloMosaic

variable {α : Type}

/-- An `[a]` array cast to the column `[a, 1]` reads, at `(p, u)`, the operand at `p`, whatever the unit coordinate `u`:
    the row-major position of `(p, u)` in `[a, 1]` is `p · 1 + u = p`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column `[a, 1]` broadcast to `[a, b]` reads, at `(p, c)`, the column's entry `p`: the first axis is kept (also when
    `a = 1`, where the only row is row `0`), the second is the operand's unit axis and reads `0`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.Payload.lean ====
/-
  The kernel body's stored value, read at one entry of its `[1024, 4096]` block.

  At `(p, q)` the second matrix product sums over `d` the product of entry `(p, d)` of the projected tokens — the first
  matrix product over `k` of the token block's row `p` with weight row `d`, plus the bias row broadcast down the rows —
  with entry `(q, d)` of the table block divided by its row's clamped norm: the row's sum of squares is a lane sum,
  viewed as a column and broadcast back along the row. Both matrix products accumulate into the zero word, which is
  the extended real `0`. This is `Cert.Logits.logit` of the four loaded blocks.
-/
import proofs.«102659_g64476049048132_cont_9to1c4b_522_37_alg».proof.Proof.Gen.KernelIdeal.Skeleton
import proofs.«102659_g64476049048132_cont_9to1c4b_522_37_alg».proof.Proof.Spec
import proofs.«102659_g64476049048132_cont_9to1c4b_522_37_alg».proof.Proof.LibKeepdims
import Idealize.ShloMosaic.PureOps.Ideal.Laws
import Idealize.ShloMosaic.Lib.ValueLayout
import Idealize.ShloMosaic.Lib.Pipeline.Value

noncomputable section

open scoped BigOperators

namespace Cert.KernelIdeal.Payload

open Cert.KernelIdeal Cert.KernelIdeal.Gen Idealize.ShloMosaic Idealize.ShloMosaic.ValueIdx
open Cert.Logits

/-- The dimension numbers of the projection: rows of the token block against rows of the weights, over 2048 entries. -/
abbrev D1 : DotDims S1024x2048 S64x2048 S1024x64 := dot_S1024x2048_S64x2048_S1024x64_1_1_0_0_n_n
/-- The dimension numbers of the logits: rows of the projected tokens against rows of the table block, over 64 entries. -/
abbrev D2 : DotDims S1024x64 S4096x64 S1024x4096 := dot_S1024x64_S4096x64_S1024x4096_1_1_0_0_n_n

/-! ## The operand indices of the two products, coordinate by coordinate -/

theorem lhs1_0 (i : S1024x64.Idx) (q : D1.contr.Idx) : (D1.lhsIdx i q 0).val = (i 0).val := by
  unfold DotDims.lhsIdx
  rw [dif_neg (show ¬(0 : Fin S1024x2048.rank) ∈ D1.lhsBatch by decide), dif_pos (show (0 : Fin S1024x2048.rank) ∈ D1.lhsNonContracting by decide)]
  rfl
theorem lhs1_1 (i : S1024x64.Idx) (q : D1.contr.Idx) : (D1.lhsIdx i q 1).val = (q ⟨0, by decide⟩).val :=
  D1.lhsIdx_val_of_single rfl i q
theorem rhs1_0 (i : S1024x64.Idx) (q : D1.contr.Idx) : (D1.rhsIdx i q 0).val = (i 1).val := by
  unfold DotDims.rhsIdx
  rw [dif_neg (show ¬(0 : Fin S64x2048.rank) ∈ D1.rhsBatch by decide), dif_pos (show (0 : Fin S64x2048.rank) ∈ D1.rhsNonContracting by decide)]
  rfl
theorem rhs1_1 (i : S1024x64.Idx) (q : D1.contr.Idx) : (D1.rhsIdx i q 1).val = (q ⟨0, by decide⟩).val :=
  D1.rhsIdx_val_of_single rfl i q

theorem lhs2_0 (i : S1024x4096.Idx) (q : D2.contr.Idx) : (D2.lhsIdx i q 0).val = (i 0).val := by
  unfold DotDims.lhsIdx
  rw [dif_neg (show ¬(0 : Fin S1024x64.rank) ∈ D2.lhsBatch by decide), dif_pos (show (0 : Fin S1024x64.rank) ∈ D2.lhsNonContracting by decide)]
  rfl
theorem lhs2_1 (i : S1024x4096.Idx) (q : D2.contr.Idx) : (D2.lhsIdx i q 1).val = (q ⟨0, by decide⟩).val :=
  D2.lhsIdx_val_of_single rfl i q
theorem rhs2_0 (i : S1024x4096.Idx) (q : D2.contr.Idx) : (D2.rhsIdx i q 0).val = (i 1).val := by
  unfold DotDims.rhsIdx
  rw [dif_neg (show ¬(0 : Fin S4096x64.rank) ∈ D2.rhsBatch by decide), dif_pos (show (0 : Fin S4096x64.rank) ∈ D2.rhsNonContracting by decide)]
  rfl
theorem rhs2_1 (i : S1024x4096.Idx) (q : D2.contr.Idx) : (D2.rhsIdx i q 1).val = (q ⟨0, by decide⟩).val :=
  D2.rhsIdx_val_of_single rfl i q

/-! ## The two matrix products into a zero accumulator, as sums over the contracted coordinate -/

/-- The projection at `(p, d)`: row `p` of the left operand against row `d` of the right. -/
theorem matmul1_apply (l : FVec Ideal S1024x2048 .f32) (r : FVec Ideal S64x2048 .f32) (p : Fin 1024) (d : Fin 64) :
    matmul D1 none l r (constant (F := Ideal) S1024x64 .f32 0x00000000#32) (ix2 p d) = ∑ k : Fin 2048, l (ix2 p k) * r (ix2 d k) := by
  show FloatOps.matmul D1 none l r (constant (F := Ideal) S1024x64 .f32 0x00000000#32) (ix2 p d) = _
  rw [Ideal.matmul_constant_zero_apply, ← Equiv.sum_comp (contrEquiv1 D1 2048 rfl rfl).symm]
  refine Finset.sum_congr rfl fun k _ => ?_
  have hk := contrEquiv1_symm_val D1 2048 rfl rfl k
  have el : D1.lhsIdx (ix2 p d) ((contrEquiv1 D1 2048 rfl rfl).symm k) = ix2 p k := funext fun a => Fin.ext (by
    match a with
    | ⟨0, _⟩ => exact lhs1_0 _ _
    | ⟨1, _⟩ => exact (lhs1_1 _ _).trans hk)
  have er : D1.rhsIdx (ix2 p d) ((contrEquiv1 D1 2048 rfl rfl).symm k) = ix2 d k := funext fun a => Fin.ext (by
    match a with
    | ⟨0, _⟩ => exact rhs1_0 _ _
    | ⟨1, _⟩ => exact (rhs1_1 _ _).trans hk)
  rw [el, er]

/-- The logits at `(p, q)`: row `p` of the left operand against row `q` of the right. -/
theorem matmul2_apply (l : FVec Ideal S1024x64 .f32) (r : FVec Ideal S4096x64 .f32) (p : Fin 1024) (q : Fin 4096) :
    matmul D2 none l r (constant (F := Ideal) S1024x4096 .f32 0x00000000#32) (ix2 p q) = ∑ d : Fin 64, l (ix2 p d) * r (ix2 q d) := by
  show FloatOps.matmul D2 none l r (constant (F := Ideal) S1024x4096 .f32 0x00000000#32) (ix2 p q) = _
  rw [Ideal.matmul_constant_zero_apply, ← Equiv.sum_comp (contrEquiv1 D2 64 rfl rfl).symm]
  refine Finset.sum_congr rfl fun k _ => ?_
  have hk := contrEquiv1_symm_val D2 64 rfl rfl k
  have el : D2.lhsIdx (ix2 p q) ((contrEquiv1 D2 64 rfl rfl).symm k) = ix2 p k := funext fun a => Fin.ext (by
    match a with
    | ⟨0, _⟩ => exact lhs2_0 _ _
    | ⟨1, _⟩ => exact (lhs2_1 _ _).trans hk)
  have er : D2.rhsIdx (ix2 p q) ((contrEquiv1 D2 64 rfl rfl).symm k) = ix2 q k := funext fun a => Fin.ext (by
    match a with
    | ⟨0, _⟩ => exact rhs2_0 _ _
    | ⟨1, _⟩ => exact (rhs2_1 _ _).trans hk)
  rw [el, er]

/-! ## A row's sum of squares, and the two operands of the last product -/

/-- A lane sum of a `[4096, 64]` vector at row `n` is the sum of that row's 64 entries. -/
theorem rowsum_apply (v : FVec Ideal S4096x64 .f32) (h : S4096x64.Reduces [1] S4096) (hφ : FKind.Formats .f32)
    (hacc : (0x00000000#32 : BitVec 32) = FKind.add.neutral .f32 hφ) (n : Fin 4096) :
    multiReduction .add [1] S4096 v 0x00000000#32 h hφ hacc (ix1 n) = ∑ j : Fin 64, v (ix2 n j) := by
  refine (Ideal.multiReduction_add_single v 0x00000000#32 h hφ hacc (ix1 n)).trans ?_
  refine Finset.sum_congr rfl fun j _ => ?_
  exact congrArg v (funext fun a => Fin.ext (by match a with | ⟨0, _⟩ => rfl | ⟨1, _⟩ => rfl))

/-- Entry `(q, d)` of the table block with each row divided by its clamped norm. -/
theorem unit_pay (v0 : FVec Ideal S4096x64 .f32) (h1 : S4096x64.ShapeCasts S4096x64) (h2 : S4096x64.Reduces [1] S4096)
    (hφ : FKind.Formats .f32) (hacc : (0x00000000#32 : BitVec 32) = FKind.add.neutral .f32 hφ)
    (h3 : S4096.ShapeCasts S4096x1) (h4 : S4096x1.Broadcasts S4096x64) (q : Fin 4096) (d : Fin 64) :
    divf (shapeCast S4096x64 v0 h1)
        (broadcastTo S4096x64
          (maximumf (sqrt (shapeCast S4096x1 (multiReduction .add [1] S4096 (mulf (shapeCast S4096x64 v0 h1) (shapeCast S4096x64 v0 h1)) 0x00000000#32 h2 hφ hacc) h3))
            (broadcast S4096x1 (Scalar.ofBits (F := Ideal) .f32 0x2B8CBCCC#32))) h4) (ix2 q d)
      = unitEntry (fun n d => v0 (ix2 n d)) q d := by
  rw [shapeCast_self v0 h1]
  show Ideal.div (v0 (ix2 q d)) (broadcastTo S4096x64 _ h4 (ix2 q d)) = _
  rw [broadcastTo_a1_ab_apply]
  show Ideal.div (v0 (ix2 q d)) (max (Ideal.sqrt (shapeCast S4096x1 _ h3 (ix2 q (0 : Fin 1)))) (Ideal.ofBits .f32 0x2B8CBCCC#32)) = _
  rw [shapeCast_a_a1_apply, rowsum_apply]
  rfl

/-- Entry `(p, d)` of the projected token block. -/
theorem proj_pay (v10 : FVec Ideal S1024x2048 .f32) (v12 : FVec Ideal S64x2048 .f32) (v14 : FVec Ideal S1x64 .f32)
    (h1 : S1024x2048.ShapeCasts S1024x2048) (h2 : S1x64.ShapeCasts S1x64) (h3 : S1x64.Broadcasts S1024x64) (p : Fin 1024) (d : Fin 64) :
    addf (matmul D1 none (shapeCast S1024x2048 v10 h1) v12 (constant (F := Ideal) S1024x64 .f32 0x00000000#32))
        (broadcastTo S1024x64 (shapeCast S1x64 v14 h2) h3) (ix2 p d)
      = proj (fun k => v10 (ix2 p k)) (fun d k => v12 (ix2 d k)) (fun d => v14 (ix2 (0 : Fin 1) d)) d := by
  rw [shapeCast_self v10 h1, shapeCast_self v14 h2]
  show matmul D1 none v10 v12 (constant (F := Ideal) S1024x64 .f32 0x00000000#32) (ix2 p d) + broadcastTo S1024x64 v14 h3 (ix2 p d) = _
  rw [matmul1_apply, broadcastTo_1b_ab_apply]
  rfl

/-! ## The stored value -/

/-- The body's stored value at `(p, q)` is the logit of the token block's row `p` against the table block's row `q`. -/
theorem pay_apply (v0 : Vec Ideal S4096x64 .f32) (v10 : Vec Ideal S1024x2048 .f32) (v12 : Vec Ideal S64x2048 .f32)
    (v14 : Vec Ideal S1x64 .f32) (p : Fin 1024) (q : Fin 4096) :
    k0_pay1 (F := Ideal) v0 v10 v12 v14 (ix2 p q)
      = logit (fun k => v10 (ix2 p k)) (fun d k => v12 (ix2 d k)) (fun d => v14 (ix2 (0 : Fin 1) d)) (fun n d => v0 (ix2 n d)) q := by
  unfold k0_pay1
  refine (matmul2_apply _ _ p q).trans ?_
  exact Finset.sum_congr rfl fun d _ => congrArg₂ (· * ·) (proj_pay v10 v12 v14 _ _ _ p d) (unit_pay v0 _ _ _ _ _ _ q d)

end Cert.KernelIdeal.Payload

end
-- ==== Proof.Blocks.lean ====
/-
  From the blocks each grid point writes back to the whole `[16384, 4096]` array the region leaves.

  The grid has 16 points. Point `t` stages rows `1024 · t … 1024 · t + 1023` of the token-major tokens, the whole
  weights, the whole bias row and the whole table, and writes back rows `1024 · t … 1024 · t + 1023` of the result:
  the output block and the token block have the same block index on the row axis, and every other block index is
  zero. So what point `t` writes back is block `t` of ONE function of the staged arrays, `Cert.Logits.G2`, and the 16
  row blocks cover the array: row `r` lies in the block of the point whose block index is `r / 1024`.
-/
import proofs.«102659_g64476049048132_cont_9to1c4b_522_37_alg».proof.Proof.Gen.KernelIdeal.Frame
import proofs.«102659_g64476049048132_cont_9to1c4b_522_37_alg».proof.Proof.Payload
import Idealize.ShloMosaic.Lib.Pipeline.Value

noncomputable section

namespace Cert.KernelIdeal.Blocks

open Cert.KernelIdeal Cert.KernelIdeal.Gen Idealize.ShloMosaic Idealize.ShloMosaic.TcCoe Idealize.SL.Sem
open Idealize.ShloMosaic.Pipeline (Dat)
open Idealize.ShloMosaic.ValueIdx Cert.Logits

variable (m : (ℓ : Loc nD τ sig) → Buf (Elt Ideal) ℓ)

theorem hz : (![0, 0] : Fin 2 → Nat) = fun _ => 0 := funext fun a => by fin_cases a <;> rfl

/-- The printed index maps over the 16 points: the token block moves with the output block along the rows, every
    other block index is zero, and the output's row block index is at most 15. -/
theorem idx_facts : ∀ t : Fin cfg0.N,
      win0_0.index t (0 : Fin 2) = win0_4.index t (0 : Fin 2) ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (1 : Fin 2) = 0 ∧ win0_4.index t (0 : Fin 2) ≤ 15 :=
  (by decide +kernel : ∀ t : Fin grid0.N, _)

/-- Every row block of the output is some point's. -/
theorem idx_onto : ∀ q0 : Fin 16, ∃ t : Fin cfg0.N, win0_4.index t = ![q0.val, 0] :=
  (by decide +kernel : ∀ q0 : Fin 16, ∃ t : Fin grid0.N, win0_4.index t = ![q0.val, 0])

/-! ## Each staged block, read where the output block's rows say -/

/-- Row `p` of point `t`'s token block is row `1024 · (block index) + p` of the staged tokens. -/
theorem blk_tokens (c : Dev nD) (t : Fin cfg0.N) (p : Fin 1024) (k : Fin 2048) (r : Fin 16384)
    (hr : r.val = win0_4.index t (0 : Fin 2) * 1024 + p.val) :
    (iblk m c 0 t : Vec Ideal S1024x2048 .f32) (ix2 p k) = (V m c main_call0_v0 : S16384x2048.Idx → EReal) (ix2 r k) := by
  obtain ⟨e0, e1, -⟩ := idx_facts t
  show V m c main_call0_v0 (((cfg0.win 0).blk t).view.emb (ix2 p k)) = V m c main_call0_v0 (ix2 r k)
  have h : ((cfg0.win 0).blk t).view.emb (ix2 p k) = ix2 r k := by
    funext a; apply Fin.ext
    match a with
    | ⟨0, _⟩ => show win0_0.index t (0 : Fin 2) * 1024 + 1 * p.val = r.val; omega
    | ⟨1, _⟩ => show win0_0.index t (1 : Fin 2) * 2048 + 1 * k.val = k.val; omega
  rw [h]

/-- Every point stages the whole weights. -/
theorem blk_weights (c : Dev nD) (t : Fin cfg0.N) (d : Fin 64) (k : Fin 2048) :
    (iblk m c 1 t : Vec Ideal S64x2048 .f32) (ix2 d k) = (V m c main_arg1 : S64x2048.Idx → EReal) (ix2 d k) := by
  obtain ⟨-, -, e2, e3, -⟩ := idx_facts t
  show V m c main_arg1 (((cfg0.win 1).blk t).view.emb (ix2 d k)) = V m c main_arg1 (ix2 d k)
  have h : ((cfg0.win 1).blk t).view.emb (ix2 d k) = ix2 d k := by
    funext a; apply Fin.ext
    match a with
    | ⟨0, _⟩ => show win0_1.index t (0 : Fin 2) * 64 + 1 * d.val = d.val; omega
    | ⟨1, _⟩ => show win0_1.index t (1 : Fin 2) * 2048 + 1 * k.val = k.val; omega
  rw [h]

/-- Every point stages the whole bias row. -/
theorem blk_bias (c : Dev nD) (t : Fin cfg0.N) (d : Fin 64) :
    (iblk m c 2 t : Vec Ideal S1x64 .f32) (ix2 (0 : Fin 1) d) = (V m c main_call0_v1 : S1x64.Idx → EReal) (ix2 (0 : Fin 1) d) := by
  obtain ⟨-, -, -, -, e4, e5, -⟩ := idx_facts t
  show V m c main_call0_v1 (((cfg0.win 2).blk t).view.emb (ix2 (0 : Fin 1) d)) = V m c main_call0_v1 (ix2 (0 : Fin 1) d)
  have h : ((cfg0.win 2).blk t).view.emb (ix2 (0 : Fin 1) d) = ix2 (0 : Fin 1) d := by
    funext a; apply Fin.ext
    match a with
    | ⟨0, _⟩ => show win0_2.index t (0 : Fin 2) * 1 + 1 * (0 : Fin 1).val = (0 : Fin 1).val; rw [e4]; rfl
    | ⟨1, _⟩ => show win0_2.index t (1 : Fin 2) * 64 + 1 * d.val = d.val; omega
  rw [h]

/-- Every point stages the whole table. -/
theorem blk_table (c : Dev nD) (t : Fin cfg0.N) (n : Fin 4096) (d : Fin 64) :
    (iblk m c 3 t : Vec Ideal S4096x64 .f32) (ix2 n d) = (V m c main_call0_v2 : S4096x64.Idx → EReal) (ix2 n d) := by
  obtain ⟨-, -, -, -, -, -, e6, e7, -⟩ := idx_facts t
  show V m c main_call0_v2 (((cfg0.win 3).blk t).view.emb (ix2 n d)) = V m c main_call0_v2 (ix2 n d)
  have h : ((cfg0.win 3).blk t).view.emb (ix2 n d) = ix2 n d := by
    funext a; apply Fin.ext
    match a with
    | ⟨0, _⟩ => show win0_3.index t (0 : Fin 2) * 4096 + 1 * n.val = n.val; omega
    | ⟨1, _⟩ => show win0_3.index t (1 : Fin 2) * 64 + 1 * d.val = d.val; omega
  rw [h]

/-! ## What a point writes back, the cover, and the array after the region -/

/-- What point `t` writes back is block `t` of `G2` of the staged arrays. -/
theorem flushed_eq (c : Dev nD) (t : Fin cfg0.N) :
    (dats m 0 c).flushed 4 t = ((cfg0.win 4).blk t).view.read (Elt Ideal)
      (G2 (V m c main_call0_v0) (V m c main_arg1) (V m c main_call0_v1) (V m c main_call0_v2)) := by
  show (cfg0.win 4).cut (grid0.coords t) ((dats m 0 c).after 4 t) = _
  rw [after0_4]
  unfold out0_4
  rw [View.canon_unit_zero hz]
  simp only [View.ld_unit_zero (S := S4096x64) hz, View.ld_unit_zero (S := S1024x2048) hz,
    View.ld_unit_zero (S := S64x2048) hz, View.ld_unit_zero (S := S1x64) hz]
  obtain ⟨e0, e1, e2, e3, e4, e5, e6, e7, e8, e9⟩ := idx_facts t
  refine funext fun (j : S1024x4096.Idx) => ?_
  obtain ⟨p, q, rfl⟩ : ∃ (p : Fin 1024) (q : Fin 4096), j = ix2 p q := ⟨j 0, j 1, eq_ix2 j⟩
  have hp : p.val < 1024 := p.isLt
  show k0_pay1 (F := Ideal) (iblk m c 3 t) (iblk m c 0 t) (iblk m c 1 t) (iblk m c 2 t) (ix2 p q)
      = G2 (V m c main_call0_v0) (V m c main_arg1) (V m c main_call0_v1) (V m c main_call0_v2)
          (((cfg0.win 4).blk t).view.emb (ix2 p q))
  have hemb : ((cfg0.win 4).blk t).view.emb (ix2 p q)
      = ix2 (⟨win0_4.index t (0 : Fin 2) * 1024 + p.val, by omega⟩ : Fin 16384) q := by
    funext a; apply Fin.ext
    match a with
    | ⟨0, _⟩ => show win0_4.index t (0 : Fin 2) * 1024 + 1 * p.val = win0_4.index t (0 : Fin 2) * 1024 + p.val; omega
    | ⟨1, _⟩ => show win0_4.index t (1 : Fin 2) * 4096 + 1 * q.val = q.val; omega
  rw [hemb, G2_apply]
  refine (Payload.pay_apply _ _ _ _ p q).trans ?_
  exact logit_congr (fun k => blk_tokens m c t p k _ rfl) (fun d k => blk_weights m c t d k)
    (fun d => blk_bias m c t d) (fun n d => blk_table m c t n d) rfl

/-- An index of the array is in point `t`'s block iff each coordinate is in the block's range on its axis. -/
theorem mem_blk (t : Fin cfg0.N) (i : S16384x4096.Idx) :
    i ∈ ((cfg0.win 4).blk t).view.set ↔ ∀ a : Fin 2, win0_4.index t a * S1024x4096.size a ≤ (i a).val
      ∧ (i a).val < win0_4.index t a * S1024x4096.size a + S1024x4096.size a := by
  show i ∈ ((View.whole main_call0_v3).slice (win0_4.rect t)).set ↔ _
  rw [View.set_slice_whole, Rect.mem_set_unit]
  exact Iff.rfl

/-- Every index of the array is in the block of some point that writes back. -/
theorem cover (i : S16384x4096.Idx) :
    ∃ t : Fin cfg0.N, (cfg0.win 4).flush t = true ∧ i ∈ ((cfg0.win 4).blk t).view.set := by
  have hi0 : (i 0).val < 16384 := (i 0).isLt
  have hi1 : (i 1).val < 4096 := (i 1).isLt
  obtain ⟨t, ht⟩ := idx_onto ⟨(i 0).val / 1024, by omega⟩
  have q0 : win0_4.index t (0 : Fin 2) = (i 0).val / 1024 := congrFun ht 0
  have q1 : win0_4.index t (1 : Fin 2) = 0 := congrFun ht 1
  refine ⟨t, flush0_4 t, ?_⟩
  rw [mem_blk]
  intro a
  match a with
  | ⟨0, _⟩ => show win0_4.index t (0 : Fin 2) * 1024 ≤ (i 0).val ∧ (i 0).val < win0_4.index t (0 : Fin 2) * 1024 + 1024; omega
  | ⟨1, _⟩ => show win0_4.index t (1 : Fin 2) * 4096 ≤ (i 1).val ∧ (i 1).val < win0_4.index t (1 : Fin 2) * 4096 + 4096; omega

/-- The array after the region is `G2` of the staged arrays. -/
theorem final (c : Dev nD) :
    (dats m 0 c).arrAt 4 cfg0.N
      = G2 (V m c main_call0_v0) (V m c main_arg1) (V m c main_call0_v1) (V m c main_call0_v2) :=
  (dats m 0 c).arrAt_eq_of_cover 4 _ (fun t _ => flushed_eq m c t) cover

end Cert.KernelIdeal.Blocks

end
-- ==== Proof.Windows.lean ====
/-
  The four arrays the kernel's windows stage, as the region finds them, read at an entry of the argument arrays.

  Before the region the host lays the tokens `[4, 4096, 2048]` out token-major as `[16384, 2048]` (row `b · 4096 + s`
  is token `(b, s)`: same row-major position), views the bias `[64]` as one row `[1, 64]`, and cuts the first 4096
  rows out of the `[12288, 64]` table; the weights are staged as they are.
-/
import proofs.«102659_g64476049048132_cont_9to1c4b_522_37_alg».proof.Proof.Gen.KernelIdeal.Frame
import Idealize.ShloMosaic.Lib.ValueLayout
import Idealize.ShloMosaic.Lib.Pipeline.Value
import Idealize.ShloMosaic.Lib.StableHlo.Run

noncomputable section

namespace Cert.KernelIdeal.Windows

open Cert.KernelIdeal Cert.KernelIdeal.Gen Idealize.ShloMosaic Idealize.ShloMosaic.TcCoe Idealize.SL.Sem
open Idealize.ShloMosaic.StableHlo Idealize.ShloMosaic.ValueIdx

variable (m : (ℓ : Loc nD τ sig) → Buf (Elt Ideal) ℓ)

/-- The staged tokens are the token-major view of the first argument. -/
theorem V_tokens (c : Dev nD) :
    (V m c main_call0_v0 : S16384x2048.Idx → EReal)
      = shapeCast S16384x2048 (m ((c : Thread nD τ).loc main_arg0)) shapeCasts_S4x4096x2048_S16384x2048 := by
  show StableHlo.after hostOps0 (fun b => m (c, b)) (Proc.devRef .tc main_call0_v0) = _
  after_results
  rfl

/-- The staged bias is the one-row view of the third argument. -/
theorem V_bias (c : Dev nD) :
    (V m c main_call0_v1 : S1x64.Idx → EReal)
      = shapeCast S1x64 (m ((c : Thread nD τ).loc main_arg2)) shapeCasts_S64_S1x64 := by
  show StableHlo.after hostOps0 (fun b => m (c, b)) (Proc.devRef .tc main_call0_v1) = _
  after_results
  rfl

/-- The staged table is the first 4096 rows of the fourth argument. -/
theorem V_table (c : Dev nD) :
    (V m c main_call0_v2 : S4096x64.Idx → EReal)
      = extractStridedSlice S4096x64 ![0, 0] (m ((c : Thread nD τ).loc main_arg3)) slices_S12288x64_S4096x64_0_0 := by
  show StableHlo.after hostOps0 (fun b => m (c, b)) (Proc.devRef .tc main_call0_v2) = _
  after_results
  rfl

/-- Row `r = b · 4096 + s` of the staged tokens is token `(b, s)`. -/
theorem tokens_apply (c : Dev nD) (b : Fin 4) (s : Fin 4096) (k : Fin 2048) (r : Fin 16384) (hr : r.val = b.val * 4096 + s.val) :
    (V m c main_call0_v0 : S16384x2048.Idx → EReal) (ix2 r k)
      = (m ((c : Thread nD τ).loc main_arg0) : S4x4096x2048.Idx → EReal) (ix3 b s k) := by
  rw [V_tokens]
  refine shapeCast_apply _ _ (ix2 r k) (ix3 b s k) ?_
  rw [Shape.rowMajor_val_three, Shape.rowMajor_val_two]
  show (b.val * 4096 + s.val) * 2048 + k.val = r.val * 2048 + k.val
  rw [hr]

/-- The staged bias row at `d` is the bias at `d`. -/
theorem bias_apply (c : Dev nD) (d : Fin 64) :
    (V m c main_call0_v1 : S1x64.Idx → EReal) (ix2 (0 : Fin 1) d)
      = (m ((c : Thread nD τ).loc main_arg2) : S64.Idx → EReal) (ix1 d) := by
  rw [V_bias]
  exact shapeCast_a_1a_apply _ _ (0 : Fin 1) d

/-- Row `n` of the staged table is row `n` of the whole table. -/
theorem table_apply (c : Dev nD) (n : Fin 4096) (d : Fin 64) (n' : Fin 12288) (hn : n'.val = n.val) :
    (V m c main_call0_v2 : S4096x64.Idx → EReal) (ix2 n d)
      = (m ((c : Thread nD τ).loc main_arg3) : S12288x64.Idx → EReal) (ix2 n' d) := by
  rw [V_table]
  exact slice2_axis0_apply 0 _ _ n d n' (by rw [hn, Nat.zero_add])

/-- The staged weights are the second argument. -/
theorem weights_apply (c : Dev nD) (i : S64x2048.Idx) :
    (V m c main_arg1 : S64x2048.Idx → EReal) i = (m ((c : Thread nD τ).loc main_arg1) : S64x2048.Idx → EReal) i :=
  congrFun (V_main_arg1 m c) i

end Cert.KernelIdeal.Windows

end
-- ==== Proof.KernelRun.lean ====
/-
  The kernel program's run, read: its result array ends at `Cert.Logits.G` of the four arguments.

  After the region the host views the `[16384, 4096]` array the region left as `[4, 4096, 4096]`: entry `(b, s, n)` is
  entry `(b · 4096 + s, n)` (same row-major position). There the region's array is `G2` of the staged arrays, whose
  row `b · 4096 + s` of tokens is token `(b, s)`, whose bias row is the bias and whose table rows are the first 4096
  rows of the table: entry by entry the logit of token `(b, s)` against row `n`, which is `G`.
-/
import proofs.«102659_g64476049048132_cont_9to1c4b_522_37_alg».proof.Proof.Gen.KernelIdeal.Frame
import proofs.«102659_g64476049048132_cont_9to1c4b_522_37_alg».proof.Proof.Blocks
import proofs.«102659_g64476049048132_cont_9to1c4b_522_37_alg».proof.Proof.Windows
import Idealize.ShloMosaic.Lib.StableHlo.Run

noncomputable section

namespace Cert.KernelIdeal.Result

open Cert.KernelIdeal Cert.KernelIdeal.Gen Idealize.ShloMosaic Idealize.ShloMosaic.TcCoe Idealize.SL.Sem
open Idealize.ShloMosaic.StableHlo Idealize.ShloMosaic.ValueIdx Cert.Logits
open Idealize.ShloMosaic.Pipeline (Dat)

variable (m : (ℓ : Loc nD τ sig) → Buf (Elt Ideal) ℓ) (ρ : Dev nD → PrngReg)

/-- The region's output array, as the lines after the region find it. -/
theorem region_array (c : Dev nD) :
    (Pipeline.withArrays spec0 c (V0 m c) (fun w => (dats m 0 c).arrAt w cfg0.N) (Proc.devRef .tc main_call0_v3)
        : S16384x4096.Idx → EReal)
      = G2 (V m c main_call0_v0) (V m c main_arg1) (V m c main_call0_v1) (V m c main_call0_v2) :=
  (Pipeline.withArrays_arr spec0 launch0.win.arr_inj c _ _ 4).trans (Blocks.final m c)

/-- The program's result after the host's last line is `G` of the arguments. -/
theorem tail_eq (c : Dev nD) :
    (Pipeline.afterTail₀ cfgs (dats m) 0 (V0 m) [hostOps1] c main_v0 : S4x4096x4096.Idx → EReal)
      = G (m ((c : Thread nD τ).loc main_arg0)) (m ((c : Thread nD τ).loc main_arg1))
          (m ((c : Thread nD τ).loc main_arg2)) (m ((c : Thread nD τ).loc main_arg3)) := by
  unfold Pipeline.afterTail₀
  show StableHlo.after hostOps1 _ (Proc.devRef .tc main_v0) = _
  after_results
  funext i
  obtain ⟨b, s, n, rfl⟩ : ∃ (b : Fin 4) (s : Fin 4096) (n : Fin 4096), i = ix3 b s n := ⟨i 0, i 1, i 2, eq_ix3 i⟩
  have hb : b.val < 4 := b.isLt
  have hs : s.val < 4096 := s.isLt
  refine (shapeCast_apply _ _ (ix3 b s n) (ix2 (⟨b.val * 4096 + s.val, by omega⟩ : Fin 16384) n) (by
    rw [Shape.rowMajor_val_three, Shape.rowMajor_val_two]; rfl)).trans ?_
  refine (congrFun (region_array m c) _).trans ?_
  rw [G2_apply, G_apply]
  exact logit_congr (fun k => Windows.tokens_apply m c b s k _ rfl) (fun d k => Windows.weights_apply m c (ix2 d k))
    (fun d => Windows.bias_apply m c d) (fun n d => Windows.table_apply m c n d (tableRow n) rfl) rfl

/-- Every weakly fair execution of the kernel program terminates with its result at `G` of the arguments and the
    arguments unchanged. -/
theorem run : θ_run defs (onTc (τ := τ) (main (F := Ideal))) ⟨m, fun _ => 0, ρ⟩ fun r => ∀ c : Dev nD,
      r.2.mem ((c.tc : Thread nD τ).loc main_v0)
        = G (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v0 (Pipeline.mem_restRefs_of main_v0 (by decide) (by decide))).trans (tail_eq m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.Result

end
-- ==== Proof.lean ====
/-
  The router's logits: a fused kernel against its array-level reference, equal over the extended reals.

  For tokens `x : [4, 4096, 2048]`, weights `w : [64, 2048]`, a bias `b : [64]` and a table `e : [12288, 64]`, both
  programs compute, for token `(b, s)` and table row `n < 4096`,
      `∑ d, ((∑ k, x (b, s, k) · w (d, k)) + b d) · (e (n, d) / max (√(∑ j, e (n, j)²)) 1e-12)`.
  The kernel walks 16 blocks of 1024 tokens, recomputing the row-normalised table at every block, between a
  token-major re-layout of `x` before and of the result after; the reference applies two whole-array contractions.
  At the ideal instance a matrix product into a zero accumulator and the host's contraction are the same sum, a lane
  sum and the host's sum from the zero word are the same sum, and the square root, the maximum and the quotient are
  the same functions, applied to the same operands in the same order with the same clamp word. So the two results
  are one function of the arguments, `Cert.Logits.G`, entry by entry, with no law of the extended reals needed and
  the inputs' finiteness never used.
  The three frames are the generated ones (the reference's is its generated run with the result dropped), and the
  kernel has no sanctioned rewrite, so its idealization's statement is `True`.
-/
import proofs.«102659_g64476049048132_cont_9to1c4b_522_37_alg».proof.Defs
import proofs.«102659_g64476049048132_cont_9to1c4b_522_37_alg».proof.Proof.Gen.Kernel
import proofs.«102659_g64476049048132_cont_9to1c4b_522_37_alg».proof.Proof.Gen.Kernel.Frame
import proofs.«102659_g64476049048132_cont_9to1c4b_522_37_alg».proof.Proof.Gen.KernelIdeal
import proofs.«102659_g64476049048132_cont_9to1c4b_522_37_alg».proof.Proof.Gen.KernelIdeal.Frame
import proofs.«102659_g64476049048132_cont_9to1c4b_522_37_alg».proof.Proof.Gen.ReferenceIdeal
import proofs.«102659_g64476049048132_cont_9to1c4b_522_37_alg».proof.Proof.Gen.Pre_finite_inputs
import proofs.«102659_g64476049048132_cont_9to1c4b_522_37_alg».proof.Proof.Gen.ReferenceIdeal.Run
import proofs.«102659_g64476049048132_cont_9to1c4b_522_37_alg».proof.Proof.Gen.ReferenceIdeal.Read
import proofs.«102659_g64476049048132_cont_9to1c4b_522_37_alg».proof.Proof.RefValue
import proofs.«102659_g64476049048132_cont_9to1c4b_522_37_alg».proof.Proof.KernelRun
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end with their result at `G` of arguments that agree. -/
theorem algebraic : Cert.algebraic_KernelIdeal_ReferenceIdeal := by
  intro m ρ m' ρ' _ hagree
  refine ⟨_, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v10_eq, Cert.ReferenceIdeal.RefValue.result_eq,
    (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
